-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8192x4096 .f32) (main_arg1 : IVec S11008x4096 32) (main_arg2 : FVec F S11008 .f32) (main_arg3 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8192x4096 : Shape := ⟨2, ![8192, 4096]⟩
abbrev S11008x4096 : Shape := ⟨2, ![11008, 4096]⟩
abbrev S11008 : Shape := ⟨1, ![11008]⟩
abbrev S1x11008 : Shape := ⟨2, ![1, 11008]⟩
abbrev S8192x11008 : Shape := ⟨2, ![8192, 11008]⟩
abbrev S1024x512 : Shape := ⟨2, ![1024, 512]⟩
abbrev S256x512 : Shape := ⟨2, ![256, 512]⟩
abbrev S1x256 : Shape := ⟨2, ![1, 256]⟩
abbrev S1024x256 : Shape := ⟨2, ![1024, 256]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S1x11008, .f32⟩
  | .hbm, ⟨5, _⟩ => ⟨S1x11008, .f32⟩
  | .hbm, ⟨6, _⟩ => ⟨S8192x11008, .f32⟩
  | .local _ .vmem, ⟨0, _⟩ => ⟨S1024x512, .f32⟩
  | .local _ .vmem, ⟨1, _⟩ => ⟨S1024x512, .f32⟩
  | .local _ .vmem, ⟨2, _⟩ => ⟨S256x512, .i32⟩
  | .local _ .vmem, ⟨3, _⟩ => ⟨S256x512, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 43, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S11008_S1x11008 : S11008.ShapeCasts S1x11008
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x512_S256x512_S1024x256_1_1_0_0_n_n_wf : DotDims.WF S1024x512 S256x512 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S11008x4096.size a
  hwx0_1 : ∀ i : grid0.Coords, EltTy.bits .i32 = 32 ∨ (Rect.block (s := S11008x4096) S256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x11008.size a
  hwx0_4 : ∀ i : grid0.Coords, EltTy.bits .f32 = 32 ∨ (Rect.block (s := S8192x11008) S1024x256.size (cc0_transform_4 i) (hinb0_4 i)).WholeWords (EltTy.packing .f32)

variable [Facts₀]

def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S11008x4096 : Shape := ⟨2, ![11008, 4096]⟩
abbrev S11008 : Shape := ⟨1, ![11008]⟩
abbrev S8192x11008 : Shape := ⟨2, ![8192, 11008]⟩
abbrev S1x11008 : Shape := ⟨2, ![1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S8192x11008, .f32⟩
  | .hbm, ⟨6, _⟩ => ⟨S1x11008, .f32⟩
  | .hbm, ⟨7, _⟩ => ⟨S8192x11008, .f32⟩
  | .hbm, ⟨8, _⟩ => ⟨S8192x11008, .f32⟩
  | .hbm, ⟨9, _⟩ => ⟨S1x11008, .f32⟩
  | .hbm, ⟨10, _⟩ => ⟨S8192x11008, .f32⟩
  | .hbm, ⟨11, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.Pieces.lean ====
/-
  What each case of the kernel body leaves behind, as a value of the blocks it was given.

  The body has three cases, by the position `k` of the grid point along the contraction axis:

    first block (k = 0):     the accumulator is set to zero and then stepped, so it ends at  step x w 0;
    a middle block:          the accumulator `a` it found is stepped, so it ends at          step x w a;
    last block (k = 7):      the accumulator is stepped as in the middle, and the output block is the epilogue of the
                             stepped accumulator with the scale and bias rows,               epilogue (step x w a) s b.

  Here `step` is the body's second stored value (the accumulator plus the block product), the zero block its first and
  `epilogue` its third. In each case the stores cover the whole buffer, so what the buffer holds afterwards is the last
  store's value; a load of the accumulator after a store to it in the same run reads what that store wrote.
-/
import proofs.«177698_j40432822125163_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- First block of the contraction axis: the accumulator ends at one step from zero. -/
theorem acc_first (c : Dev nD) (i : grid0.Coords) (arg3 : Memref sig .tc .vmem S1024x512 .f32) (harg3 : arg3.IsWhole) (arg4 : Memref sig .tc .vmem S256x512 .i32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i) (x0 : Vec F S1024x512 .f32) (x1 : Vec F S256x512 .i32) (x2 : Vec F S1x256 .f32) (x3 : Vec F S1x256 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x256) hz, View.readCov_unit_zero (S := S1024x256) _ hz]
  simp only [View.readAt_eq_ld, harg3.read_unread, harg4.read_unread, harg5.read_unread, harg6.read_unread, harg8.read_unread,
    View.ld_unit_zero (S := S1024x512) hz, View.ld_unit_zero (S := S256x512) hz, View.ld_unit_zero (S := S1024x256) hz,
    View.ld_unit_zero (S := S1x256) hz]

/-- A middle block: the accumulator ends at one step from what it held. -/
theorem acc_middle (c : Dev nD) (i : grid0.Coords) (arg3 : Memref sig .tc .vmem S1024x512 .f32) (harg3 : arg3.IsWhole) (arg4 : Memref sig .tc .vmem S256x512 .i32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i) (x0 : Vec F S1024x512 .f32) (x1 : Vec F S256x512 .i32) (x2 : Vec F S1x256 .f32) (x3 : Vec F S1x256 .f32) (xs0 : Vec F S1024x256 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x256) hz]
  simp only [View.readAt_eq_ld, harg3.read_unread, harg4.read_unread, harg5.read_unread, harg6.read_unread, harg8.read_unread,
    View.ld_unit_zero (S := S1024x512) hz, View.ld_unit_zero (S := S256x512) hz, View.ld_unit_zero (S := S1024x256) hz,
    View.ld_unit_zero (S := S1x256) hz]

/-- The last block: the accumulator ends at one step from what it held, as in the middle. -/
theorem acc_last (c : Dev nD) (i : grid0.Coords) (arg3 : Memref sig .tc .vmem S1024x512 .f32) (harg3 : arg3.IsWhole) (arg4 : Memref sig .tc .vmem S256x512 .i32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i) (x0 : Vec F S1024x512 .f32) (x1 : Vec F S256x512 .i32) (x2 : Vec F S1x256 .f32) (x3 : Vec F S1x256 .f32) (xs0 : Vec F S1024x256 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x256) hz]
  simp only [View.readAt_eq_ld, harg3.read_unread, harg4.read_unread, harg5.read_unread, harg6.read_unread, harg8.read_unread,
    View.ld_unit_zero (S := S1024x512) hz, View.ld_unit_zero (S := S256x512) hz, View.ld_unit_zero (S := S1024x256) hz,
    View.ld_unit_zero (S := S1x256) hz]

/-- The last block: the output block is the epilogue of the stepped accumulator. -/
theorem out_last (c : Dev nD) (i : grid0.Coords) (arg3 : Memref sig .tc .vmem S1024x512 .f32) (harg3 : arg3.IsWhole) (arg4 : Memref sig .tc .vmem S256x512 .i32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i) (x0 : Vec F S1024x512 .f32) (x1 : Vec F S256x512 .i32) (x2 : Vec F S1x256 .f32) (x3 : Vec F S1x256 .f32) (xs0 : Vec F S1024x256 .f32) :
    out0_C_4 c i arg3 harg3 arg4 harg4 arg5 harg5 arg6 harg6 arg7 harg7 arg8 harg8 hc0 hc1 x0 x1 x2 x3 xs0 = k0_pay3 (k0_pay2 x0 x1 xs0) x2 x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x256) hz, View.readCov_unit_zero (S := S1024x256) _ hz]
  simp only [View.readAt_eq_ld, harg3.read_unread, harg4.read_unread, harg5.read_unread, harg6.read_unread, harg8.read_unread,
    View.ld_unit_zero (S := S1024x512) hz, View.ld_unit_zero (S := S256x512) hz, View.ld_unit_zero (S := S1024x256) hz,
    View.ld_unit_zero (S := S1x256) hz]

end Cert.KernelIdeal.Cases

end
-- ==== Proof.Spec.lean ====
/-
  The quantized linear layer as ONE function of its four argument arrays, and the law that lets the contraction be
  taken block by block.

  For activations `X` [8192, 4096], integer weights `W` [11008, 4096] and per-channel `scale`, `bias` [11008] the
  result at (t, o) is

      (∑ k < 4096, X[t, k] · W[o, k]) · scale[o] + bias[o]

  over the extended reals, an integer weight read as the real number it is. The contraction axis has 4096 = 8 · 512
  columns; a sum over them is the sum over 8 consecutive blocks of the sums over each block's 512 columns
  (`sum_by_blocks`: re-indexing a finite sum in a commutative monoid through `Fin a × Fin b ≃ Fin (a · b)`; no
  finiteness of the terms is needed, addition of extended reals being associative and commutative).
-/
import Idealize.ShloMosaic.PureOps.Ideal
import Idealize.ShloMosaic.Lib.ValueIdx

noncomputable section

open scoped BigOperators

namespace Cert.QuantLinear

open Idealize.ShloMosaic Idealize.ShloMosaic.ValueIdx

/-- A sum over `a · b` consecutive indices is the sum over `a` consecutive blocks of the sums over each block's `b`
    indices: index `b · p + q` is the `q`-th of block `p`. -/
theorem sum_by_blocks {M : Type*} [AddCommMonoid M] (a b n : ℕ) (hn : a * b = n) (f : Fin n → M) :
    ∑ k : Fin n, f k
      = ∑ p : Fin a, ∑ q : Fin b, f ⟨b * p.val + q.val, by
          have hp := p.isLt
          have hq := q.isLt
          calc b * p.val + q.val < b * p.val + b := by omega
            _ = b * (p.val + 1) := (Nat.mul_succ b p.val).symm
            _ ≤ b * a := Nat.mul_le_mul_left _ hp
            _ = n := by rw [Nat.mul_comm]; exact hn⟩ := by
  subst hn
  rw [← Equiv.sum_comp finProdFinEquiv f, Fintype.sum_prod_type]
  refine Finset.sum_congr rfl fun p _ => Finset.sum_congr rfl fun q _ => ?_
  congr 1
  apply Fin.ext
  simp only [finProdFinEquiv_apply_val]
  omega

/-- The activations' shape, the weights', the per-channel vectors', the result's. -/
abbrev SX : Shape := ⟨2, ![8192, 4096]⟩
abbrev SW : Shape := ⟨2, ![11008, 4096]⟩
abbrev SV : Shape := ⟨1, ![11008]⟩
abbrev SO : Shape := ⟨2, ![8192, 11008]⟩

/-- An integer weight as the extended real it denotes (read signed). -/
def wt (w : BitVec 32) : EReal := ((w.toInt : ℝ) : EReal)

/-- Row `t` of the activations against row `o` of the weights: the whole contraction. -/
def dotRow (X : SX.Idx → EReal) (W : SW.Idx → BitVec 32) (t : Fin 8192) (o : Fin 11008) : EReal :=
  ∑ k : Fin 4096, X (ix2 t k) * wt (W (ix2 o k))

/-- The same over the 512 columns of block `s` of the contraction axis only: columns `512·s … 512·s + 511`. -/
def dotBlock (X : SX.Idx → EReal) (W : SW.Idx → BitVec 32) (t : Fin 8192) (o : Fin 11008) (s : Fin 8) : EReal :=
  ∑ kk : Fin 512, X (ix2 t ⟨512 * s.val + kk.val, by have := s.isLt; have := kk.isLt; omega⟩)
    * wt (W (ix2 o ⟨512 * s.val + kk.val, by have := s.isLt; have := kk.isLt; omega⟩))

/-- The whole contraction is the sum of the eight blocks' contractions. -/
theorem dotRow_eq_blocks (X : SX.Idx → EReal) (W : SW.Idx → BitVec 32) (t : Fin 8192) (o : Fin 11008) :
    dotRow X W t o = ∑ s : Fin 8, dotBlock X W t o s := by
  unfold dotRow dotBlock
  exact sum_by_blocks 8 512 4096 rfl (fun k => X (ix2 t k) * wt (W (ix2 o k)))

/-- THE LAYER: at (t, o), the contraction of row `t` with weight row `o`, times channel `o`'s scale, plus its bias. -/
def linear (X : SX.Idx → EReal) (W : SW.Idx → BitVec 32) (scale bias : SV.Idx → EReal) : SO.Idx → EReal :=
  fun i => dotRow X W (i 0) (i 1) * scale (ix1 (i 1)) + bias (ix1 (i 1))

end Cert.QuantLinear

end
-- ==== Proof.Payload.lean ====
/-
  The kernel body's three stored values, each read at ONE entry over the extended reals.

  The body keeps a [1024, 256] accumulator. At the first block of the contraction axis it stores zero into it; at every
  block it adds, entry by entry, the product of the [1024, 512] block of activations with the transposed [256, 512] block of
  weights (both rounded to bf16 on the way in, which over the extended reals changes nothing, an integer weight read as the
  real number it is); at the last block it stores accumulator · scale + bias into the output block, the [1, 256] scale and
  bias rows broadcast down the 1024 rows.

    zero_entry      the reset's value is 0 at every entry;
    step_entry      one step leaves, at (p, q), what the accumulator held there plus ∑ k < 512, x[p, k] · w[q, k];
    epilogue_entry  the output block at (p, q) is acc[p, q] · scale[0, q] + bias[0, q].
-/
import proofs.«177698_j40432822125163_1_alg».proof.Proof.Gen.KernelIdeal.Skeleton
import proofs.«177698_j40432822125163_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Entry

open Idealize.ShloMosaic Idealize.ShloMosaic.ValueIdx Cert.KernelIdeal Cert.KernelIdeal.Gen Cert.QuantLinear

/-- The product's operand indices at output entry `j` and contraction index `k`: the left operand is read at
    (row of `j`, `k`), the right operand at (column of `j`, `k`): both operands are contracted along their second axis. -/
theorem lhs_row (j : S1024x256.Idx) (k : dot_S1024x512_S256x512_S1024x256_1_1_0_0_n_n.contr.Idx) : (dot_S1024x512_S256x512_S1024x256_1_1_0_0_n_n.lhsIdx j k 0).val = (j 0).val := by
  unfold DotDims.lhsIdx
  rw [dif_neg (show ¬(0 : Fin S1024x512.rank) ∈ dot_S1024x512_S256x512_S1024x256_1_1_0_0_n_n.lhsBatch by decide),
    dif_pos (show (0 : Fin S1024x512.rank) ∈ dot_S1024x512_S256x512_S1024x256_1_1_0_0_n_n.lhsNonContracting by decide)]
  rfl
theorem lhs_col (j : S1024x256.Idx) (k : dot_S1024x512_S256x512_S1024x256_1_1_0_0_n_n.contr.Idx) : (dot_S1024x512_S256x512_S1024x256_1_1_0_0_n_n.lhsIdx j k 1).val = (k ⟨0, by decide⟩).val :=
  dot_S1024x512_S256x512_S1024x256_1_1_0_0_n_n.lhsIdx_val_of_single rfl j k
theorem rhs_row (j : S1024x256.Idx) (k : dot_S1024x512_S256x512_S1024x256_1_1_0_0_n_n.contr.Idx) : (dot_S1024x512_S256x512_S1024x256_1_1_0_0_n_n.rhsIdx j k 0).val = (j 1).val := by
  unfold DotDims.rhsIdx
  rw [dif_neg (show ¬(0 : Fin S256x512.rank) ∈ dot_S1024x512_S256x512_S1024x256_1_1_0_0_n_n.rhsBatch by decide),
    dif_pos (show (0 : Fin S256x512.rank) ∈ dot_S1024x512_S256x512_S1024x256_1_1_0_0_n_n.rhsNonContracting by decide)]
  rfl
theorem rhs_col (j : S1024x256.Idx) (k : dot_S1024x512_S256x512_S1024x256_1_1_0_0_n_n.contr.Idx) : (dot_S1024x512_S256x512_S1024x256_1_1_0_0_n_n.rhsIdx j k 1).val = (k ⟨0, by decide⟩).val :=
  dot_S1024x512_S256x512_S1024x256_1_1_0_0_n_n.rhsIdx_val_of_single rfl j k

/-- The block product onto a zero accumulator, at (p, q): row `p` of the left block against row `q` of the right block,
    summed over the 512 contracted columns. -/
theorem block_product_entry (l : FVec Ideal S1024x512 .bf16) (r : FVec Ideal S256x512 .bf16) (p : Fin 1024) (q : Fin 256) :
    matmul dot_S1024x512_S256x512_S1024x256_1_1_0_0_n_n none l r (constant (F := Ideal) S1024x256 .f32 0x00000000#32) (ix2 p q)
      = ∑ k : Fin 512, l (ix2 p k) * r (ix2 q k) := by
  refine (Ideal.matmul_constant_zero_apply dot_S1024x512_S256x512_S1024x256_1_1_0_0_n_n none l r (ix2 p q)).trans ?_
  rw [← Equiv.sum_comp (contrEquiv1 dot_S1024x512_S256x512_S1024x256_1_1_0_0_n_n 512 rfl rfl).symm]
  refine Finset.sum_congr rfl fun k _ => ?_
  have hk := contrEquiv1_symm_val dot_S1024x512_S256x512_S1024x256_1_1_0_0_n_n 512 rfl rfl k
  have el : dot_S1024x512_S256x512_S1024x256_1_1_0_0_n_n.lhsIdx (ix2 p q) ((contrEquiv1 dot_S1024x512_S256x512_S1024x256_1_1_0_0_n_n 512 rfl rfl).symm k) = ix2 p k := funext fun a => Fin.ext (by
    match a with
    | ⟨0, _⟩ => exact lhs_row _ _
    | ⟨1, _⟩ => exact (lhs_col _ _).trans hk)
  have er : dot_S1024x512_S256x512_S1024x256_1_1_0_0_n_n.rhsIdx (ix2 p q) ((contrEquiv1 dot_S1024x512_S256x512_S1024x256_1_1_0_0_n_n 512 rfl rfl).symm k) = ix2 q k := funext fun a => Fin.ext (by
    match a with
    | ⟨0, _⟩ => exact rhs_row _ _
    | ⟨1, _⟩ => exact (rhs_col _ _).trans hk)
  rw [el, er]

/-- The reset stores zero at every entry. -/
theorem zero_entry (p : Fin 1024) (q : Fin 256) : k0_pay1 (F := Ideal) (ix2 p q) = 0 := by
  unfold k0_pay1
  simp only [shapeCast_self]
  exact Ideal.ofBits_zero_f32

/-- One step of the accumulation at (p, q): what the accumulator held there, plus the activations' row `p` against the
    weights' row `q` over the block's 512 columns. -/
theorem step_entry (x : Vec Ideal S1024x512 .f32) (w : Vec Ideal S256x512 .i32) (acc : Vec Ideal S1024x256 .f32)
    (p : Fin 1024) (q : Fin 256) :
    k0_pay2 x w acc (ix2 p q) = acc (ix2 p q) + ∑ k : Fin 512, x (ix2 p k) * wt (w (ix2 q k)) := by
  unfold k0_pay2
  simp only [shapeCast_self]
  exact congrArg (acc (ix2 p q) + ·) (block_product_entry _ _ p q)

/-- The epilogue at (p, q): the accumulator's entry times the channel's scale plus its bias, the scale and bias rows read
    at column `q`. -/
theorem epilogue_entry (acc : Vec Ideal S1024x256 .f32) (s b : Vec Ideal S1x256 .f32) (p : Fin 1024) (q : Fin 256) :
    k0_pay3 acc s b (ix2 p q) = acc (ix2 p q) * s (ix2 (0 : Fin 1) q) + b (ix2 (0 : Fin 1) q) := by
  unfold k0_pay3
  simp only [shapeCast_self]
  show acc (ix2 p q) * broadcastTo S1024x256 s broadcasts_S1x256_S1024x256 (ix2 p q)
      + broadcastTo S1024x256 b broadcasts_S1x256_S1024x256 (ix2 p q) = _
  rw [broadcastTo_1b_ab_apply s _ p q, broadcastTo_1b_ab_apply b _ p q]

end Cert.KernelIdeal.Entry

end
-- ==== Proof.Fold.lean ====
/-
  The accumulator over one run of the contraction axis.

  The eight grid points 8·d … 8·d + 7 share one row tile and one column tile and walk the contraction axis. The first of
  them sets the accumulator to zero and adds its block product; each later one adds its own. So after the `j`-th point
  of the run the accumulator holds, at every entry, zero plus the sum of the block products of the points 8·d … 8·d + j
  (`acc_after`: the fold over the run, opened once by induction on `j`), and the last point's output block is the epilogue
  of the accumulator it leaves (`out_is_epilogue`).
-/
import proofs.«177698_j40432822125163_1_alg».proof.Proof.Gen.KernelIdeal.Value
import proofs.«177698_j40432822125163_1_alg».proof.Proof.Pieces
import proofs.«177698_j40432822125163_1_alg».proof.Proof.Payload
import proofs.«177698_j40432822125163_1_alg».proof.Proof.Spec

noncomputable section

open scoped BigOperators

namespace Cert.KernelIdeal.Acc

open Idealize.ShloMosaic Idealize.ShloMosaic.TcCoe Idealize.ShloMosaic.ValueIdx Idealize.SL.Sem
open Cert.KernelIdeal Cert.KernelIdeal.Gen Cert.QuantLinear

variable (m : (ℓ : Loc nD τ sig) → Buf (Elt Ideal) ℓ)

/-- A point at the start of a run leaves one step from zero, whatever the accumulator held. -/
theorem leaves_first (c : Dev nD) (n : ℕ) (hb : n < cfg0.N) (acc : Vec Ideal S1024x256 .f32) (h0 : n % 8 = 0) :
    Value.scAt0_0 m c n hb acc = k0_pay2 (iblk m c 0 (⟨n, hb⟩ : Fin cfg0.N)) (iblk m c 1 (⟨n, hb⟩ : Fin cfg0.N)) (k0_pay1 (F := Ideal)) := by
  have h1 : ¬n % 8 = 7 := by omega
  unfold Value.scAt0_0
  rw [dif_pos h0, dif_neg h1]
  exact Cases.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- Any other point leaves one step from what the accumulator held. -/
theorem leaves_step (c : Dev nD) (n : ℕ) (hb : n < cfg0.N) (acc : Vec Ideal S1024x256 .f32) (h0 : ¬n % 8 = 0) :
    Value.scAt0_0 m c n hb acc = k0_pay2 (iblk m c 0 (⟨n, hb⟩ : Fin cfg0.N)) (iblk m c 1 (⟨n, hb⟩ : Fin cfg0.N)) acc := by
  unfold Value.scAt0_0
  rw [dif_neg h0]
  by_cases h1 : n % 8 = 7
  · rw [dif_pos h1]
    exact Cases.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
  · rw [dif_neg h1]
    exact Cases.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- A block of activations against a block of weights at an entry: the activations' row against the weights' row over
    the block's 512 columns. -/
def blockDot (x : Vec Ideal S1024x512 .f32) (w : Vec Ideal S256x512 .i32) (j : S1024x256.Idx) : EReal :=
  ∑ k : Fin 512, x (ix2 (j 0) k) * wt (w (ix2 (j 1) k))

/-- Point `n`'s block product at an entry (zero for a number past the grid, which is never used). -/
def addend (c : Dev nD) (n : ℕ) (j : S1024x256.Idx) : EReal :=
  if h : n < cfg0.N then blockDot (iblk m c 0 (⟨n, h⟩ : Fin cfg0.N)) (iblk m c 1 (⟨n, h⟩ : Fin cfg0.N)) j else 0

/-- The fold over a run from its first point `b`: after `j` further points, zero plus the block products of the points
    `b … b + j`. -/
theorem fold_entry (c : Dev nD) (b : ℕ) (hb8 : b % 8 = 0) (j : ℕ) (hj : j ≤ 7) (h : b + j < cfg0.N) (i : S1024x256.Idx) :
    Pipeline.accAt (fun n h => Value.scAt0_0 m c n h (VS0_0.read (Elt Ideal) VS0_0.junk)) (Value.scAt0_0 m c) b j h i
      = 0 + ∑ s ∈ Finset.range (j + 1), addend m c (b + s) i := by
  refine Pipeline.accAt_add_apply (fun n h => Value.scAt0_0 m c n h (VS0_0.read (Elt Ideal) VS0_0.junk)) (Value.scAt0_0 m c)
    (fun _ => (0 : EReal)) (addend m c) b 7 ?_ ?_ j hj h i
  · intro hb i
    obtain ⟨p, q, rfl⟩ : ∃ (p : Fin 1024) (q : Fin 256), i = ix2 p q := ⟨i 0, i 1, eq_ix2 i⟩
    rw [leaves_first m c b hb _ hb8, Entry.step_entry, Entry.zero_entry]
    unfold addend
    rw [dif_pos hb]
    rfl
  · intro n hn acc i h1 h2
    have h0 : ¬n % 8 = 0 := by omega
    obtain ⟨p, q, rfl⟩ : ∃ (p : Fin 1024) (q : Fin 256), i = ix2 p q := ⟨i 0, i 1, eq_ix2 i⟩
    rw [leaves_step m c n hn acc h0, Entry.step_entry]
    unfold addend
    rw [dif_pos hn]
    rfl

/-- WHAT THE ACCUMULATOR HOLDS after point `t`: zero plus the block products of the points of `t`'s run up to `t`. -/
theorem acc_after (c : Dev nD) (t : Fin cfg0.N) (i : S1024x256.Idx) :
    (outsAt0 m c t.val t.isLt).2 i = 0 + ∑ s ∈ Finset.range (t.val % 8 + 1), addend m c (8 * (t.val / 8) + s) i := by
  rw [Value.soutsAt0_0_eq m c t]
  exact fold_entry m c (8 * (t.val / 8)) (by omega) (t.val % 8) (by omega) _ i

/-- At the last point of a run the output block is the epilogue of the accumulator that point leaves. -/
theorem out_is_epilogue (c : Dev nD) (t : Fin cfg0.N) (h7 : t.val % 8 = 7) :
    (outsAt0 m c t.val t.isLt).1 = k0_pay3 (outsAt0 m c t.val t.isLt).2 (iblk m c 2 t) (iblk m c 3 t) := by
  have h0 : ¬t.val % 8 = 0 := by omega
  rw [outsAt0_C m c t h0 h7]
  dsimp only
  exact (Cases.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) _).trans
    (congrArg (fun a => k0_pay3 a (iblk m c 2 t) (iblk m c 3 t))
      (Cases.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) _).symm)

end Cert.KernelIdeal.Acc

end
-- ==== Proof.GridFacts.lean ====
/-
  The grid's index maps in closed form.

  The grid is 8 × 43 × 8: 8 row tiles of 1024 tokens, 43 column tiles of 256 output channels, 8 blocks of 512 along the
  contraction axis, the last axis fastest. So point `t`, counted in that order, is (t / 344, t / 8 mod 43, t mod 8). At it the
  activations' window is block (row tile, contraction block), the weights' window block (column tile, contraction block),
  the scale's and the bias's windows block (0, column tile) and the output's window block (row tile, column tile). Each
  equation is a statement about finitely many points and is decided over them.
-/
import proofs.«177698_j40432822125163_1_alg».proof.Proof.Gen.KernelIdeal.Points

set_option Elab.async false

namespace Cert.KernelIdeal.Grid

open Idealize.ShloMosaic Cert.KernelIdeal Cert.KernelIdeal.Gen

/-- The activations' block at point `t`: (row tile, contraction block). -/
theorem index_x : ∀ t : Fin cfg0.N, win0_0.index t (0 : Fin 2) = t.val / 344 ∧ win0_0.index t (1 : Fin 2) = t.val % 8 :=
  (by decide +kernel : ∀ t : Fin grid0.N, win0_0.index t (0 : Fin 2) = t.val / 344 ∧ win0_0.index t (1 : Fin 2) = t.val % 8)

/-- The weights' block at point `t`: (column tile, contraction block). -/
theorem index_w : ∀ t : Fin cfg0.N, win0_1.index t (0 : Fin 2) = t.val / 8 % 43 ∧ win0_1.index t (1 : Fin 2) = t.val % 8 :=
  (by decide +kernel : ∀ t : Fin grid0.N, win0_1.index t (0 : Fin 2) = t.val / 8 % 43 ∧ win0_1.index t (1 : Fin 2) = t.val % 8)

/-- The scale's block at point `t`: (0, column tile). -/
theorem index_scale : ∀ t : Fin cfg0.N, win0_2.index t (0 : Fin 2) = 0 ∧ win0_2.index t (1 : Fin 2) = t.val / 8 % 43 :=
  (by decide +kernel : ∀ t : Fin grid0.N, win0_2.index t (0 : Fin 2) = 0 ∧ win0_2.index t (1 : Fin 2) = t.val / 8 % 43)

/-- The bias's block at point `t`: (0, column tile). -/
theorem index_bias : ∀ t : Fin cfg0.N, win0_3.index t (0 : Fin 2) = 0 ∧ win0_3.index t (1 : Fin 2) = t.val / 8 % 43 :=
  (by decide +kernel : ∀ t : Fin grid0.N, win0_3.index t (0 : Fin 2) = 0 ∧ win0_3.index t (1 : Fin 2) = t.val / 8 % 43)

/-- The output's block at point `t`: (row tile, column tile). -/
theorem index_out : ∀ t : Fin cfg0.N, win0_4.index t (0 : Fin 2) = t.val / 344 ∧ win0_4.index t (1 : Fin 2) = t.val / 8 % 43 :=
  (by decide +kernel : ∀ t : Fin grid0.N, win0_4.index t (0 : Fin 2) = t.val / 344 ∧ win0_4.index t (1 : Fin 2) = t.val / 8 % 43)

end Cert.KernelIdeal.Grid
-- ==== Proof.Blocks.lean ====
/-
  The windows' blocks as entries of the argument arrays.

  At grid point `t` = (row tile I, column tile J, contraction block K), with I = t / 344, J = t / 8 mod 43, K = t mod 8:

    the activations' block holds rows 1024·I … 1024·I + 1023 and columns 512·K … 512·K + 511 of the activations;
    the weights' block holds rows 256·J … 256·J + 255 and columns 512·K … 512·K + 511 of the weights;
    the scale's (the bias's) block holds columns 256·J … 256·J + 255 of the one-row array the program makes of the scale
    (the bias) vector before the region, whose entry (0, o) is the vector's entry o.

  A block's entry at a local coordinate sits in the array at block index × block size + the local coordinate, on each axis.
-/
import proofs.«177698_j40432822125163_1_alg».proof.Proof.Gen.KernelIdeal.Frame.Runs
import proofs.«177698_j40432822125163_1_alg».proof.Proof.GridFacts
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The activations' block at point `t`, entry (p, k): the activations at row 1024·(t / 344) + p, column 512·(t mod 8) + k. -/
theorem x_entry (c : Dev nD) (t : Fin cfg0.N) (p : Fin 1024) (k : Fin 512) (r : Fin 8192) (cl : Fin 4096)
    (hr : r.val = 1024 * (t.val / 344) + p.val) (hc : cl.val = 512 * (t.val % 8) + k.val) :
    (iblk m c 0 t : Vec F S1024x512 .f32) (ix2 p k) = m ((c : Thread nD τ).loc main_arg0) (ix2 r cl) := by
  obtain ⟨e0, e1⟩ := Grid.index_x t
  unfold iblk
  rw [View.read_apply]
  show V m c main_arg0 _ = _
  rw [V_main_arg0 m c]
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * k.val = cl.val; rw [e1, hc]; omega

/-- The weights' block at point `t`, entry (q, k): the weights at row 256·(t / 8 mod 43) + q, column 512·(t mod 8) + k. -/
theorem w_entry (c : Dev nD) (t : Fin cfg0.N) (q : Fin 256) (k : Fin 512) (o : Fin 11008) (cl : Fin 4096)
    (ho : o.val = 256 * (t.val / 8 % 43) + q.val) (hc : cl.val = 512 * (t.val % 8) + k.val) :
    (iblk m c 1 t : Vec F S256x512 .i32) (ix2 q k) = m ((c : Thread nD τ).loc main_arg1) (ix2 o cl) := by
  obtain ⟨e0, e1⟩ := Grid.index_w t
  unfold iblk
  rw [View.read_apply]
  show V m c main_arg1 _ = _
  rw [V_main_arg1 m c]
  refine congrArg _ (funext fun a => Fin.ext ?_)
  match a with
  | ⟨0, _⟩ => show win0_1.index t (0 : Fin 2) * 256 + 1 * q.val = o.val; rw [e0, ho]; omega
  | ⟨1, _⟩ => show win0_1.index t (1 : Fin 2) * 512 + 1 * k.val = cl.val; rw [e1, hc]; omega

/-- The one-row array the program makes of the scale vector before the region. -/
theorem scale_row (c : Dev nD) :
    (V m c main_v0 : S1x11008.Idx → Elt F .f32)
      = shapeCast S1x11008 (m ((c : Thread nD τ).loc main_arg2)) shapeCasts_S11008_S1x11008 := by
  dsimp only [V, hostOps0]; after_results; rfl

/-- The one-row array the program makes of the bias vector before the region. -/
theorem bias_row (c : Dev nD) :
    (V m c main_v1 : S1x11008.Idx → Elt F .f32)
      = shapeCast S1x11008 (m ((c : Thread nD τ).loc main_arg3)) shapeCasts_S11008_S1x11008 := by
  dsimp only [V, hostOps0]; after_results; rfl

/-- The scale's block at point `t`, entry (0, q): the scale vector at channel 256·(t / 8 mod 43) + q. -/
theorem scale_entry (c : Dev nD) (t : Fin cfg0.N) (q : Fin 256) (o : Fin 11008) (ho : o.val = 256 * (t.val / 8 % 43) + q.val) :
    (iblk m c 2 t : Vec F S1x256 .f32) (ix2 (0 : Fin 1) q) = m ((c : Thread nD τ).loc main_arg2) (ix1 o) := by
  obtain ⟨e0, e1⟩ := Grid.index_scale t
  unfold iblk
  rw [View.read_apply]
  show V m c main_v0 _ = _
  rw [scale_row m c]
  refine Eq.trans (congrArg _ (funext fun a => Fin.ext ?_)) (shapeCast_a_1a_apply _ _ (0 : Fin 1) o)
  match a with
  | ⟨0, _⟩ => show win0_2.index t (0 : Fin 2) * 1 + 1 * 0 = 0; rw [e0]
  | ⟨1, _⟩ => show win0_2.index t (1 : Fin 2) * 256 + 1 * q.val = o.val; rw [e1, ho]; omega

/-- The bias's block at point `t`, entry (0, q): the bias vector at channel 256·(t / 8 mod 43) + q. -/
theorem bias_entry (c : Dev nD) (t : Fin cfg0.N) (q : Fin 256) (o : Fin 11008) (ho : o.val = 256 * (t.val / 8 % 43) + q.val) :
    (iblk m c 3 t : Vec F S1x256 .f32) (ix2 (0 : Fin 1) q) = m ((c : Thread nD τ).loc main_arg3) (ix1 o) := by
  obtain ⟨e0, e1⟩ := Grid.index_bias t
  unfold iblk
  rw [View.read_apply]
  show V m c main_v1 _ = _
  rw [bias_row m c]
  refine Eq.trans (congrArg _ (funext fun a => Fin.ext ?_)) (shapeCast_a_1a_apply _ _ (0 : Fin 1) o)
  match a with
  | ⟨0, _⟩ => show win0_3.index t (0 : Fin 2) * 1 + 1 * 0 = 0; rw [e0]
  | ⟨1, _⟩ => show win0_3.index t (1 : Fin 2) * 256 + 1 * q.val = o.val; rw [e1, ho]; omega

end Cert.KernelIdeal.Blocks

end
-- ==== Proof.Final.lean ====
/-
  The kernel's result array is the layer.

  Fix a run of the contraction axis: row tile I, column tile J, the eight points 8·d … 8·d + 7 with d = 43·I + J. The block
  product of the run's `s`-th point, at local entry (p, q), is the contraction of activations' row 1024·I + p with weights' row
  256·J + q over columns 512·s … 512·s + 511 (`addend_eq`). The accumulator after the run's last point is zero plus the eight
  of them, which is the contraction over all 4096 columns (`run_total`: the sum taken block by block). That point's output
  block is the epilogue of it with the scale's and the bias's blocks: the layer at (1024·I + p, 256·J + q) (`out_entry`).
  It is the only point of the run that writes its block back, and it writes block (I, J) of the result array
  (`flushed_eq`); the blocks (I, J) tile the array (`cover`: entry (r, o) lies in the block the last point of the run
  I = r / 1024, J = o / 256 writes), so the array ends holding the layer everywhere (`final`).
-/
import proofs.«177698_j40432822125163_1_alg».proof.Proof.Fold
import proofs.«177698_j40432822125163_1_alg».proof.Proof.Blocks

noncomputable section

open scoped BigOperators

namespace Cert.KernelIdeal.Layer

open Idealize.ShloMosaic Idealize.ShloMosaic.TcCoe Idealize.ShloMosaic.ValueIdx Idealize.SL.Sem
open Idealize.ShloMosaic.Pipeline (Dat)
open Cert.KernelIdeal Cert.KernelIdeal.Gen Cert.QuantLinear

variable (m : (ℓ : Loc nD τ sig) → Buf (Elt Ideal) ℓ) (ρ : Dev nD → PrngReg)

/-- The layer of the four arguments' launch contents: what the result array is to hold. -/
abbrev result (c : Dev nD) : Buf (Elt Ideal) ((c : Thread nD τ).loc main_v2) :=
  linear (m ((c : Thread nD τ).loc main_arg0)) (m ((c : Thread nD τ).loc main_arg1)) (m ((c : Thread nD τ).loc main_arg2)) (m ((c : Thread nD τ).loc main_arg3))

/-- The block product of the `s`-th point of `t`'s run, at local entry (p, q): the contraction of the activations' row `r`
    with the weights' row `o` over block `s` of the columns. -/
theorem addend_eq (c : Dev nD) (t : Fin cfg0.N) (h7 : t.val % 8 = 7) (s : Fin 8) (p : Fin 1024) (q : Fin 256)
    (r : Fin 8192) (o : Fin 11008) (hr : r.val = 1024 * (t.val / 344) + p.val) (ho : o.val = 256 * (t.val / 8 % 43) + q.val) :
    Acc.addend m c (8 * (t.val / 8) + s.val) (ix2 p q) = dotBlock (m ((c : Thread nD τ).loc main_arg0)) (m ((c : Thread nD τ).loc main_arg1)) r o s := by
  have ht : t.val < 2752 := lt_of_lt_of_eq t.isLt (show cfg0.N = 2752 from N_0)
  have hs : s.val < 8 := s.isLt
  have hn : 8 * (t.val / 8) + s.val < cfg0.N :=
    lt_of_lt_of_eq (by omega : 8 * (t.val / 8) + s.val < 2752) (show 2752 = cfg0.N from N_0.symm)
  unfold Acc.addend
  rw [dif_pos hn]
  unfold Acc.blockDot dotBlock
  refine Finset.sum_congr rfl fun k _ => ?_
  have hk : k.val < 512 := k.isLt
  exact congrArg₂ (fun a b => a * wt b)
    (Blocks.x_entry m c ⟨8 * (t.val / 8) + s.val, hn⟩ p k r ⟨512 * s.val + k.val, by omega⟩
      (by show r.val = 1024 * ((8 * (t.val / 8) + s.val) / 344) + p.val; omega)
      (by show 512 * s.val + k.val = 512 * ((8 * (t.val / 8) + s.val) % 8) + k.val; omega))
    (Blocks.w_entry m c ⟨8 * (t.val / 8) + s.val, hn⟩ q k o ⟨512 * s.val + k.val, by omega⟩
      (by show o.val = 256 * ((8 * (t.val / 8) + s.val) / 8 % 43) + q.val; omega)
      (by show 512 * s.val + k.val = 512 * ((8 * (t.val / 8) + s.val) % 8) + k.val; omega))

/-- After the last point of a run the accumulator holds, at local entry (p, q), the whole contraction of the activations'
    row `r` with the weights' row `o`. -/
theorem run_total (c : Dev nD) (t : Fin cfg0.N) (h7 : t.val % 8 = 7) (p : Fin 1024) (q : Fin 256)
    (r : Fin 8192) (o : Fin 11008) (hr : r.val = 1024 * (t.val / 344) + p.val) (ho : o.val = 256 * (t.val / 8 % 43) + q.val) :
    (outsAt0 m c t.val t.isLt).2 (ix2 p q) = dotRow (m ((c : Thread nD τ).loc main_arg0)) (m ((c : Thread nD τ).loc main_arg1)) r o := by
  rw [Acc.acc_after m c t (ix2 p q), show t.val % 8 + 1 = 8 from by omega, zero_add, Finset.sum_range, dotRow_eq_blocks]
  exact Finset.sum_congr rfl fun s _ => addend_eq m c t h7 s p q r o hr ho

/-- The last point's output block at local entry (p, q) is the layer at (r, o). -/
theorem out_entry (c : Dev nD) (t : Fin cfg0.N) (h7 : t.val % 8 = 7) (p : Fin 1024) (q : Fin 256)
    (r : Fin 8192) (o : Fin 11008) (hr : r.val = 1024 * (t.val / 344) + p.val) (ho : o.val = 256 * (t.val / 8 % 43) + q.val) :
    (outsAt0 m c t.val t.isLt).1 (ix2 p q) = result m c (ix2 r o) := by
  refine (congrFun (Acc.out_is_epilogue m c t h7) (ix2 p q)).trans ?_
  refine (Entry.epilogue_entry (outsAt0 m c t.val t.isLt).2 (iblk m c 2 t) (iblk m c 3 t) p q).trans ?_
  rw [run_total m c t h7 p q r o hr ho, Blocks.scale_entry m c t q o ho, Blocks.bias_entry m c t q o ho]
  rfl

/-- WHAT A POINT THAT WRITES BACK WRITES: its block of the layer. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have ht : t.val < 2752 := lt_of_lt_of_eq t.isLt (show cfg0.N = 2752 from N_0)
  obtain ⟨e0, e1⟩ := Grid.index_out t
  rw [Value.flushed4 m c t]
  funext j
  have hj0 : (j 0).val < 1024 := (j 0).isLt
  have hj1 : (j 1).val < 256 := (j 1).isLt
  have hx : (cfg0.win 4).xinj (grid0.coords t) j = ix2 (⟨(j 0).val, hj0⟩ : Fin 1024) (⟨(j 1).val, hj1⟩ : Fin 256) :=
    funext fun a => by match a with | ⟨0, _⟩ => rfl | ⟨1, _⟩ => rfl
  have he : ((cfg0.win 4).blk t).view.emb j
      = ix2 (⟨1024 * (t.val / 344) + (j 0).val, by omega⟩ : Fin 8192) (⟨256 * (t.val / 8 % 43) + (j 1).val, by omega⟩ : Fin 11008) :=
    funext fun a => Fin.ext (by
      match a with
      | ⟨0, _⟩ => show win0_4.index t (0 : Fin 2) * 1024 + 1 * (j 0).val = 1024 * (t.val / 344) + (j 0).val; rw [e0]; omega
      | ⟨1, _⟩ => show win0_4.index t (1 : Fin 2) * 256 + 1 * (j 1).val = 256 * (t.val / 8 % 43) + (j 1).val; rw [e1]; omega)
  show (outsAt0 m c t.val t.isLt).1 ((cfg0.win 4).xinj (grid0.coords t) j) = result m c (((cfg0.win 4).blk t).view.emb j)
  rw [hx, he]
  exact out_entry m c t h7 _ _ _ _ rfl rfl

/-- An entry of the result array is in point `t`'s block iff each coordinate is in the block's range on its axis. -/
theorem mem_blk (t : Fin cfg0.N) (i : S8192x11008.Idx) :
    i ∈ ((cfg0.win 4).blk t).view.set
      ↔ ∀ a : Fin 2, win0_4.index t a * S1024x256.size a ≤ (i a).val ∧ (i a).val < win0_4.index t a * S1024x256.size a + S1024x256.size a := by
  show i ∈ ((View.whole main_v2).slice (win0_4.rect t)).set ↔ _
  rw [View.set_slice_whole, Rect.mem_set_unit]
  exact Iff.rfl

/-- Every entry (r, o) of the result array is in the block the last point of the run (r / 1024, o / 256) writes back. -/
theorem cover (i : S8192x11008.Idx) : ∃ t : Fin cfg0.N, (cfg0.win 4).flush t = true ∧ i ∈ ((cfg0.win 4).blk t).view.set := by
  have hi0 : (i 0).val < 8192 := (i 0).isLt
  have hi1 : (i 1).val < 11008 := (i 1).isLt
  have hN : 344 * ((i 0).val / 1024) + 8 * ((i 1).val / 256) + 7 < cfg0.N :=
    lt_of_lt_of_eq (by omega : 344 * ((i 0).val / 1024) + 8 * ((i 1).val / 256) + 7 < 2752) (show 2752 = cfg0.N from N_0.symm)
  have e0 : win0_4.index ⟨_, hN⟩ (0 : Fin 2) = (344 * ((i 0).val / 1024) + 8 * ((i 1).val / 256) + 7) / 344 := (Grid.index_out ⟨_, hN⟩).1
  have e1 : win0_4.index ⟨_, hN⟩ (1 : Fin 2) = (344 * ((i 0).val / 1024) + 8 * ((i 1).val / 256) + 7) / 8 % 43 := (Grid.index_out ⟨_, hN⟩).2
  refine ⟨⟨_, hN⟩, (flush0_4 _).mpr (by show (344 * ((i 0).val / 1024) + 8 * ((i 1).val / 256) + 7) % 8 = 7; omega), ?_⟩
  rw [mem_blk]
  intro a
  match a with
  | ⟨0, _⟩ =>
    show win0_4.index ⟨_, hN⟩ (0 : Fin 2) * 1024 ≤ (i 0).val ∧ (i 0).val < win0_4.index ⟨_, hN⟩ (0 : Fin 2) * 1024 + 1024
    rw [e0]; omega
  | ⟨1, _⟩ =>
    show win0_4.index ⟨_, hN⟩ (1 : Fin 2) * 256 ≤ (i 1).val ∧ (i 1).val < win0_4.index ⟨_, hN⟩ (1 : Fin 2) * 256 + 256
    rw [e1]; omega

/-- THE RESULT ARRAY after the run holds the layer. -/
theorem final (c : Dev nD) : (dats m 0 c).arrAt 4 cfg0.N = result m c :=
  (dats m 0 c).arrAt_eq_of_cover 4 (result m c) (flushed_eq m c) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.Reference.lean ====
/-
  The reference computes the layer.

  The reference converts the integer weights to reals, contracts each activations' row with each weights' row over all
  4096 columns in one product, multiplies column `o` by `scale[o]` and adds `bias[o]` (the two vectors broadcast along the
  rows). Read at an entry (t, o), operation by operation, that is

      (∑ k < 4096, X[t, k] · W[o, k]) · scale[o] + bias[o],

  the function `Cert.QuantLinear.linear` of the four arguments.
-/
import proofs.«177698_j40432822125163_1_alg».proof.Proof.Gen.ReferenceIdeal.Read
import proofs.«177698_j40432822125163_1_alg».proof.Proof.Spec

noncomputable section

open scoped BigOperators

namespace Cert.ReferenceIdeal.Layer

open Idealize.ShloMosaic Idealize.ShloMosaic.ValueIdx Cert.ReferenceIdeal Cert.ReferenceIdeal.Read Cert.QuantLinear

/-- The reference's last stage is the layer, entry by entry. -/
theorem stage_eq_linear (x0 : (⟨S8192x4096, .f32⟩ : BufTy).Contents (Elt Ideal)) (x1 : (⟨S11008x4096, .i32⟩ : BufTy).Contents (Elt Ideal))
    (x2 x3 : (⟨S11008, .f32⟩ : BufTy).Contents (Elt Ideal)) :
    val_main_v7 (F := Ideal) x0 x1 x2 x3 = linear x0 x1 x2 x3 := by
  funext i
  have el : ∀ k : Fin 4096, lidx_main_v1 i k = ix2 (i 0) k := fun k => funext fun a => Fin.ext (by
    match a with | ⟨0, _⟩ => rfl | ⟨1, _⟩ => rfl)
  have er : ∀ k : Fin 4096, ridx_main_v1 i k = ix2 (i 1) k := fun k => funext fun a => Fin.ext (by
    match a with | ⟨0, _⟩ => rfl | ⟨1, _⟩ => rfl)
  have es : idx_main_v2 (idx_main_v3 i) = ix1 (i 1) := funext fun a => Fin.ext (by match a with | ⟨0, _⟩ => rfl)
  have eb : idx_main_v5 (idx_main_v6 i) = ix1 (i 1) := funext fun a => Fin.ext (by match a with | ⟨0, _⟩ => rfl)
  rw [val_main_v7_apply, val_main_v4_apply, val_main_v1_apply, val_main_v3_apply, val_main_v2_apply, val_main_v6_apply,
    val_main_v5_apply]
  simp only [el, er, es, eb, val_main_v0_apply]
  rfl

end Cert.ReferenceIdeal.Layer

end
-- ==== Proof.lean ====
/-
  A quantized linear layer, tiled, against its one-line reference: equal over the extended reals.

  The kernel computes, for activations X [8192, 4096], integer weights W [11008, 4096] and per-channel scale and bias
  [11008], the array whose entry (t, o) is (∑ k, X[t, k] · W[o, k]) · scale[o] + bias[o]. It tiles the result into 8 × 43
  blocks of 1024 × 256 and walks the 4096 contracted columns in 8 blocks of 512: a [1024, 256] accumulator is set to zero
  at a tile's first block, receives the product of the activations' block with the transposed weights' block at every
  block, and at the last block is multiplied by the scale row, shifted by the bias row and written to the result. The
  reference contracts all 4096 columns at once. Over the extended reals the operands' rounding to bf16 is the identity and
  an integer weight is the real it denotes whatever float format it is converted to, so the two differ only in how the sum
  over the columns is grouped: 0 + (block 0's sum) + … + (block 7's sum) against the one sum. Addition of extended reals
  being associative and commutative, they are equal; no finiteness of the inputs is used.

  The modules: Spec (the layer as one function; a sum taken block by block), Payload (the body's three stored values at an
  entry), Pieces (what each case of the body leaves, as those values), GridFacts (the index maps in closed form), Blocks
  (the windows' blocks as entries of the arguments), Fold (the accumulator over a run of the contraction axis), Final (the
  result array is the layer), Reference (the reference computes the layer). The three frames: the two kernels' are the
  generated frame theorems, the reference's its generated run with the result dropped. The idealization rewrote nothing,
  so that claim is `True`.
-/
import proofs.«177698_j40432822125163_1_alg».proof.Defs
import proofs.«177698_j40432822125163_1_alg».proof.Proof.Gen.Kernel
import proofs.«177698_j40432822125163_1_alg».proof.Proof.Gen.Kernel.Frame
import proofs.«177698_j40432822125163_1_alg».proof.Proof.Gen.KernelIdeal
import proofs.«177698_j40432822125163_1_alg».proof.Proof.Gen.KernelIdeal.Frame
import proofs.«177698_j40432822125163_1_alg».proof.Proof.Gen.KernelIdeal.Value
import proofs.«177698_j40432822125163_1_alg».proof.Proof.Gen.ReferenceIdeal
import proofs.«177698_j40432822125163_1_alg».proof.Proof.Gen.ReferenceIdeal.Run
import proofs.«177698_j40432822125163_1_alg».proof.Proof.Gen.ReferenceIdeal.Read
import proofs.«177698_j40432822125163_1_alg».proof.Proof.Gen.Pre_finite_inputs
import proofs.«177698_j40432822125163_1_alg».proof.Proof.Final
import proofs.«177698_j40432822125163_1_alg».proof.Proof.Reference

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of arguments that agree. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Layer.stage_eq_linear,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
